-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x256 .f32) (main_arg6 : FVec F S64x256 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S64x256 .f32) (main_arg6 : FVec F S64x256 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S800000x256 : Shape := ⟨2, ![800000, 256]⟩
abbrev S256x64 : Shape := ⟨2, ![256, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 53
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64x256, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S128x256, .f32⟩
  | .hbm, ⟨33, _⟩ => ⟨S128x256, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S256x64, .f32⟩
  | .hbm, ⟨50, _⟩ => ⟨S256x64, .f32⟩
  | .hbm, ⟨51, _⟩ => ⟨S1x64, .f32⟩
  | .hbm, ⟨52, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x1, .f32⟩
  | .local _ .vmem, ⟨16, _⟩ => ⟨S5000x1, .f32⟩
  | .local _ .vmem, ⟨17, _⟩ => ⟨S256x64, .f32⟩
  | .local _ .vmem, ⟨18, _⟩ => ⟨S256x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  transposes_S64x256_S256x64_1_0 : S64x256.Transposes [1, 0] S256x64
  shapeCasts_S64_S1x64 : S64.ShapeCasts S1x64
  shapeCasts_S5000x256_S5000x256 : S5000x256.ShapeCasts S5000x256
  broadcasts_S5000x1_S5000x256 : S5000x1.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x64 : Shape := ⟨2, ![256, 64]⟩
abbrev S50000x64 : Shape := ⟨2, ![50000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64x256, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S128x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S256x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S256x64, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The kernel program's run with its result named. The program is two pipelined regions among stretches of host
  operations; its generated frame follows the buffers' contents through the four segments (`Gen.W0 … Gen.W4`) and
  reads, against the final state, only the argument arrays. Here the same launch over the same segments reads one
  more buffer against the final state, the result buffer of the second region: every weakly fair execution ends
  with it at the last boundary's contents `Gen.W4`, and with the arguments unchanged. What `Gen.W4` holds there — the
  second layer of the first — is the business of the other modules.
-/
import proofs.«162847_j16174846836858_1_alg».proof.Proof.Gen.KernelIdeal.Frame

set_option maxRecDepth 16384

noncomputable section

namespace Cert.SageKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents the fold through the program's segments gives it (`Gen.W4`) and every argument array as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.SageKernel

end
-- ==== Proof.Spec.lean ====
/-
  One layer of mean-aggregating message passing over a graph, stated on whole arrays and entry by entry over the
  extended reals. A node's incoming messages have already been summed (`A`, one row per node) and counted (`C`, one
  entry per node, kept as an `[N, 1]` column). Row `r` of the layer's output is

      (A r / max (C r) 1) · Wl  +  X r · Wr  +  b,

  the mean of the messages through one weight matrix, the node's own features `X r` through another, and a bias:
  `pre` is one entry of it, `linear` the whole array and `rectified` the array after `max · 0`. The weight matrices
  are taken with the contracted axis first (`[K, H]`), the bias as a function of the output column.
  The constants 1.0 and 0.0 stay the float words the programs spell.
-/
import Idealize.ShloMosaic.PureOps.Ideal
import Idealize.ShloMosaic.Lib.ValueIdx

noncomputable section

namespace Cert.Sage

open Idealize.ShloMosaic Idealize.ShloMosaic.ValueIdx

/-- The float word of 1.0, read over the extended reals. -/
abbrev one : EReal := Ideal.ofBits .f32 0x3F800000#32
/-- The float word of 0.0, read over the extended reals. -/
abbrev zero : EReal := Ideal.ofBits .f32 0x00000000#32

/-- Entry `(r, j)` of a layer before the activation: the sum over `k` of (summed message `(r, k)` divided by
    `max (count r) 1`) times `Wl (k, j)`, plus the sum over `k` of `X (r, k)` times `Wr (k, j)`, plus `b j`. -/
def pre {N K H : ℕ} (X A : (⟨2, ![N, K]⟩ : Shape).Idx → EReal) (C : (⟨2, ![N, 1]⟩ : Shape).Idx → EReal)
    (Wl Wr : (⟨2, ![K, H]⟩ : Shape).Idx → EReal) (b : Fin H → EReal) (r : Fin N) (j : Fin H) : EReal :=
  (∑ k : Fin K, Ideal.div (A (ix2 r k)) (max (C (ix2 r (0 : Fin 1))) one) * Wl (ix2 k j))
    + (∑ k : Fin K, X (ix2 r k) * Wr (ix2 k j)) + b j

/-- The layer without activation, as an `[N, H]` array. -/
def linear {N K H : ℕ} (X A : (⟨2, ![N, K]⟩ : Shape).Idx → EReal) (C : (⟨2, ![N, 1]⟩ : Shape).Idx → EReal)
    (Wl Wr : (⟨2, ![K, H]⟩ : Shape).Idx → EReal) (b : Fin H → EReal) : (⟨2, ![N, H]⟩ : Shape).Idx → EReal :=
  fun i => pre X A C Wl Wr b (i 0) (i 1)

/-- The layer followed by `max · 0`, as an `[N, H]` array. -/
def rectified {N K H : ℕ} (X A : (⟨2, ![N, K]⟩ : Shape).Idx → EReal) (C : (⟨2, ![N, 1]⟩ : Shape).Idx → EReal)
    (Wl Wr : (⟨2, ![K, H]⟩ : Shape).Idx → EReal) (b : Fin H → EReal) : (⟨2, ![N, H]⟩ : Shape).Idx → EReal :=
  fun i => max (pre X A C Wl Wr b (i 0) (i 1)) zero

theorem linear_apply {N K H : ℕ} (X A : (⟨2, ![N, K]⟩ : Shape).Idx → EReal) (C : (⟨2, ![N, 1]⟩ : Shape).Idx → EReal)
    (Wl Wr : (⟨2, ![K, H]⟩ : Shape).Idx → EReal) (b : Fin H → EReal) (r : Fin N) (j : Fin H) :
    linear X A C Wl Wr b (ix2 r j) = pre X A C Wl Wr b r j := rfl

theorem rectified_apply {N K H : ℕ} (X A : (⟨2, ![N, K]⟩ : Shape).Idx → EReal) (C : (⟨2, ![N, 1]⟩ : Shape).Idx → EReal)
    (Wl Wr : (⟨2, ![K, H]⟩ : Shape).Idx → EReal) (b : Fin H → EReal) (r : Fin N) (j : Fin H) :
    rectified X A C Wl Wr b (ix2 r j) = max (pre X A C Wl Wr b r j) zero := rfl

end Cert.Sage

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.Body0.lean ====
/-
  What one grid point of region 0 computes. The body loads a block of 5000 rows of the node features, of the summed
  messages and of the counts, the two weight matrices and the bias row whole, and stores one block of the output. Read
  entry by entry over the extended reals, the stored block is the layer of the specification applied to the loaded
  blocks: each of the two matrix products is the plain sum over the contracted axis (the accumulator is the zero
  splat), the count column is broadcast along its row, the bias row along its column, and the result meets 0 in a maximum.
-/
import proofs.«162847_j16174846836858_1_alg».proof.Proof.Gen.KernelIdeal.Frame
import proofs.«162847_j16174846836858_1_alg».proof.Proof.Spec
import proofs.«162847_j16174846836858_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.SageKernel.Body0

open Cert.KernelIdeal Cert.KernelIdeal.Gen Idealize.ShloMosaic Idealize.ShloMosaic.ValueIdx

local notation "dd" => dot_S5000x128_S128x256_S5000x256_1_0_0_1_n_n

/-! ## The matrix product's operand indices -/

theorem lhs_0 (i : S5000x256.Idx) (q : (dot_S5000x128_S128x256_S5000x256_1_0_0_1_n_n).contr.Idx) : ((dot_S5000x128_S128x256_S5000x256_1_0_0_1_n_n).lhsIdx i q 0).val = (i 0).val := by
  unfold DotDims.lhsIdx
  rw [dif_neg (show ¬(0 : Fin S5000x128.rank) ∈ (dot_S5000x128_S128x256_S5000x256_1_0_0_1_n_n).lhsBatch by decide), dif_pos (show (0 : Fin S5000x128.rank) ∈ (dot_S5000x128_S128x256_S5000x256_1_0_0_1_n_n).lhsNonContracting by decide)]
  rfl
theorem lhs_1 (i : S5000x256.Idx) (q : (dot_S5000x128_S128x256_S5000x256_1_0_0_1_n_n).contr.Idx) : ((dot_S5000x128_S128x256_S5000x256_1_0_0_1_n_n).lhsIdx i q 1).val = (q ⟨0, by decide⟩).val :=
  (dot_S5000x128_S128x256_S5000x256_1_0_0_1_n_n).lhsIdx_val_of_single rfl i q
theorem rhs_0 (i : S5000x256.Idx) (q : (dot_S5000x128_S128x256_S5000x256_1_0_0_1_n_n).contr.Idx) : ((dot_S5000x128_S128x256_S5000x256_1_0_0_1_n_n).rhsIdx i q 0).val = (q ⟨0, by decide⟩).val :=
  (dot_S5000x128_S128x256_S5000x256_1_0_0_1_n_n).rhsIdx_val_of_single rfl i q
theorem rhs_1 (i : S5000x256.Idx) (q : (dot_S5000x128_S128x256_S5000x256_1_0_0_1_n_n).contr.Idx) : ((dot_S5000x128_S128x256_S5000x256_1_0_0_1_n_n).rhsIdx i q 1).val = (i 1).val := by
  unfold DotDims.rhsIdx
  rw [dif_neg (show ¬(1 : Fin S128x256.rank) ∈ (dot_S5000x128_S128x256_S5000x256_1_0_0_1_n_n).rhsBatch by decide), dif_pos (show (1 : Fin S128x256.rank) ∈ (dot_S5000x128_S128x256_S5000x256_1_0_0_1_n_n).rhsNonContracting by decide)]
  rfl

/-- A block's matrix product into the zero splat, at row `r` and column `j`: the sum over the contracted axis of the
    left operand's row `r` against the right operand's column `j`. -/
theorem matmul_apply (L : FVec Ideal S5000x128 .f32) (Rt : FVec Ideal S128x256 .f32) (r : Fin 5000) (j : Fin 256) :
    matmul (F := Ideal) (dot_S5000x128_S128x256_S5000x256_1_0_0_1_n_n) none L Rt (constant S5000x256 .f32 0x00000000#32) (ix2 r j)
      = ∑ k : Fin 128, L (ix2 r k) * Rt (ix2 k j) := by
  simp only [matmul]
  rw [Ideal.matmul_constant_zero_apply, ← Equiv.sum_comp (ValueIdx.contrEquiv1 (dot_S5000x128_S128x256_S5000x256_1_0_0_1_n_n) 128 rfl rfl).symm]
  refine Finset.sum_congr rfl fun k _ => ?_
  have hk := ValueIdx.contrEquiv1_symm_val (dot_S5000x128_S128x256_S5000x256_1_0_0_1_n_n) 128 rfl rfl k
  have el : (dot_S5000x128_S128x256_S5000x256_1_0_0_1_n_n).lhsIdx (ix2 r j) ((ValueIdx.contrEquiv1 (dot_S5000x128_S128x256_S5000x256_1_0_0_1_n_n) 128 rfl rfl).symm k) = ix2 r k := funext fun a => Fin.ext (by
    match a with
    | ⟨0, _⟩ => exact lhs_0 _ _
    | ⟨1, _⟩ => exact (lhs_1 _ _).trans hk)
  have er : (dot_S5000x128_S128x256_S5000x256_1_0_0_1_n_n).rhsIdx (ix2 r j) ((ValueIdx.contrEquiv1 (dot_S5000x128_S128x256_S5000x256_1_0_0_1_n_n) 128 rfl rfl).symm k) = ix2 k j := funext fun a => Fin.ext (by
    match a with
    | ⟨0, _⟩ => exact (rhs_0 _ _).trans hk
    | ⟨1, _⟩ => exact rhs_1 _ _)
  rw [el, er]

/-! ## The stored block -/

/-- The value the body stores, as a function of the six loaded blocks (the counts, the summed messages, the first
    weight matrix, the features, the second weight matrix, the bias row): the specification's layer of them. -/
theorem payload_eq (v0 : Vec Ideal S5000x1 .f32) (v2 : Vec Ideal S5000x128 .f32) (v8 : Vec Ideal S128x256 .f32)
    (v11 : Vec Ideal S5000x128 .f32) (v12 : Vec Ideal S128x256 .f32) (v16 : Vec Ideal S1x256 .f32) :
    k0_pay1 (F := Ideal) v0 v2 v8 v11 v12 v16
      = Cert.Sage.rectified (N := 5000) (K := 128) (H := 256) v11 v2 v0 v8 v12 (fun j => v16 (ix2 (0 : Fin 1) j)) := by
  funext i
  obtain ⟨r, j, rfl⟩ : ∃ (r : Fin 5000) (j : Fin 256), i = ix2 r j := ⟨i 0, i 1, eq_ix2 i⟩
  rw [Cert.Sage.rectified_apply]
  unfold k0_pay1 Cert.Sage.pre
  dsimp only
  simp only [shapeCast_self]
  rw [maximumf_apply, addf_apply, addf_apply, matmul_apply, matmul_apply, broadcast_apply, broadcastTo_1b_ab_apply]
  refine congrArg₂ max (congrArg₂ (· + ·) (congrArg₂ (· + ·) (Finset.sum_congr rfl fun k _ => ?_) rfl) rfl) rfl
  rw [divf_apply, Cert.Keepdims.broadcastTo_a1_ab_apply, maximumf_apply, broadcast_apply]
  rfl

theorem origin_zero : (![0, 0] : Fin 2 → Nat) = fun _ => 0 := funext fun a => by fin_cases a <;> rfl

/-- What the body leaves in the output window's buffer, from the input windows' blocks in operand order (features,
    summed messages, counts, the two weight matrices, the bias row): its one store covers the whole block and every
    load reads a whole block, so it is the stored value of those blocks. -/
theorem out_eq {F : FTy → Type} [FloatOps F] (x0 : Vec F S5000x128 .f32) (x1 : Vec F S5000x128 .f32) (x2 : Vec F S5000x1 .f32)
    (x3 : Vec F S128x256 .f32) (x4 : Vec F S128x256 .f32) (x5 : Vec F S1x256 .f32) :
    out0_6 x0 x1 x2 x3 x4 x5 = k0_pay1 x2 x1 x3 x0 x4 x5 := by
  unfold out0_6
  rw [View.canon_unit_zero origin_zero]
  simp only [View.ld_unit_zero (S := S5000x1) origin_zero, View.ld_unit_zero (S := S5000x128) origin_zero,
    View.ld_unit_zero (S := S128x256) origin_zero, View.ld_unit_zero (S := S1x256) origin_zero]

end Cert.SageKernel.Body0

end
-- ==== Proof.SpecRows.lean ====
/-
  One entry of a layer depends on ONE row of the features, of the summed messages and of the counts, and on one
  column of the two weight matrices and of the bias. So the layer of a block of rows is the layer of the whole arrays
  read at those rows: what lets a grid point that sees only its own block of nodes compute its block of the output.
-/
import proofs.«162847_j16174846836858_1_alg».proof.Proof.Spec

noncomputable section

namespace Cert.Sage

open Idealize.ShloMosaic Idealize.ShloMosaic.ValueIdx

/-- Two families of arrays, possibly of different numbers of rows, that agree on row `r` of the one and row `r'` of
    the other, and on column `j` of the one and `j'` of the other, give the same layer entry there. -/
theorem pre_congr {N N' K H : ℕ}
    (X A : (⟨2, ![N, K]⟩ : Shape).Idx → EReal) (C : (⟨2, ![N, 1]⟩ : Shape).Idx → EReal)
    (X' A' : (⟨2, ![N', K]⟩ : Shape).Idx → EReal) (C' : (⟨2, ![N', 1]⟩ : Shape).Idx → EReal)
    (Wl Wr Wl' Wr' : (⟨2, ![K, H]⟩ : Shape).Idx → EReal) (b b' : Fin H → EReal)
    (r : Fin N) (r' : Fin N') (j j' : Fin H)
    (hX : ∀ k, X (ix2 r k) = X' (ix2 r' k)) (hA : ∀ k, A (ix2 r k) = A' (ix2 r' k))
    (hC : C (ix2 r (0 : Fin 1)) = C' (ix2 r' (0 : Fin 1)))
    (hWl : ∀ k, Wl (ix2 k j) = Wl' (ix2 k j')) (hWr : ∀ k, Wr (ix2 k j) = Wr' (ix2 k j')) (hb : b j = b' j') :
    pre X A C Wl Wr b r j = pre X' A' C' Wl' Wr' b' r' j' := by
  unfold pre
  simp only [hX, hA, hC, hWl, hWr, hb]

end Cert.Sage

end
-- ==== Proof.Region0.lean ====
/-
  Region 0's output array after the region has run, as ONE function of the arrays the region finds when it is
  entered. The grid has ten points; point `t` sees rows `5000 t … 5000 t + 4999` of the features, of the summed
  messages and of the counts, the weight matrices and the bias whole, and writes back rows `5000 t …` of the output. A
  layer's entry depends on one row only, so what point `t` writes back is block `t` of the layer of the WHOLE arrays;
  the ten blocks tile the output, so the output ends holding that layer.
-/
import proofs.«162847_j16174846836858_1_alg».proof.Proof.Gen.KernelIdeal.Frame
import proofs.«162847_j16174846836858_1_alg».proof.Proof.Body0
import proofs.«162847_j16174846836858_1_alg».proof.Proof.SpecRows
import Idealize.ShloMosaic.Lib.Pipeline.Value
import Idealize.ShloMosaic.Lib.ValueIdx

set_option maxRecDepth 16384

noncomputable section

namespace Cert.SageKernel.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer of the arrays as the region finds them. -/
def entryLayer (c : Dev nD) : S50000x256.Idx → EReal :=
  Cert.Sage.rectified (N := 50000) (K := 128) (H := 256) (V c main_arg0) (V c main_v18) (V c main_v8) (V c main_v19) (V c main_v20)
    (fun j => V c main_v21 (ix2 (0 : Fin 1) j))

/-- The printed index maps, decided over the ten grid points: the three row-blocked inputs move with the output's
    row block, every other block index is zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block of the output is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- WHAT POINT `t` WRITES BACK is block `t` of the layer of the arrays as the region finds them. -/
theorem flushed_eq (c : Dev nD) (t : Fin cfg0.N) :
    (dat0 V c).flushed 6 t = ((cfg0.win 6).blk t).view.read (Elt Ideal) (entryLayer V c) := by
  show (cfg0.win 6).cut (grid0.coords t) ((dat0 V c).after 6 t) = _
  rw [after0_6, Body0.out_eq, Body0.payload_eq]
  obtain ⟨e00, e01, e10, e11, e20, e21, e30, e31, e40, e41, e50, e51, e61, e6b⟩ := idx_facts t
  funext y
  show max (Cert.Sage.pre (iblk0 V c 0 t) (iblk0 V c 1 t) (iblk0 V c 2 t) (iblk0 V c 3 t) (iblk0 V c 4 t)
      (fun j => iblk0 V c 5 t (ix2 (0 : Fin 1) j)) (y 0) (y 1)) Cert.Sage.zero
    = max (Cert.Sage.pre (V c main_arg0) (V c main_v18) (V c main_v8) (V c main_v19) (V c main_v20)
      (fun j => V c main_v21 (ix2 (0 : Fin 1) j)) ((((cfg0.win 6).blk t).view.emb y) 0) ((((cfg0.win 6).blk t).view.emb y) 1)) Cert.Sage.zero
  have hy0 : (y 0).val < 5000 := (y 0).isLt
  have hy1 : (y 1).val < 256 := (y 1).isLt
  refine congrArg (max · Cert.Sage.zero) (Cert.Sage.pre_congr _ _ _ _ _ _ _ _ _ _ _ _ _ _ _ _ ?_ ?_ ?_ ?_ ?_ ?_)
  · intro k
    show V c main_arg0 (((cfg0.win 0).blk t).view.emb (ix2 (y 0) k)) = V c main_arg0 (ix2 ((((cfg0.win 6).blk t).view.emb y) 0) k)
    refine congrArg (V c main_arg0) (funext fun a => Fin.ext ?_)
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 128 + 1 * k.val = k.val; omega
  · intro k
    show V c main_v18 (((cfg0.win 1).blk t).view.emb (ix2 (y 0) k)) = V c main_v18 (ix2 ((((cfg0.win 6).blk t).view.emb y) 0) k)
    refine congrArg (V c main_v18) (funext fun a => Fin.ext ?_)
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 128 + 1 * k.val = k.val; omega
  · show V c main_v8 (((cfg0.win 2).blk t).view.emb (ix2 (y 0) (0 : Fin 1))) = V c main_v8 (ix2 ((((cfg0.win 6).blk t).view.emb y) 0) (0 : Fin 1))
    refine congrArg (V c main_v8) (funext fun a => Fin.ext ?_)
    match a with
    | ⟨0, _⟩ => show win0_2.index t (0 : Fin 2) * 5000 + 1 * (y 0).val = win0_6.index t (0 : Fin 2) * 5000 + 1 * (y 0).val; omega
    | ⟨1, _⟩ => show win0_2.index t (1 : Fin 2) * 1 + 1 * 0 = 0; omega
  · intro k
    show V c main_v19 (((cfg0.win 3).blk t).view.emb (ix2 k (y 1))) = V c main_v19 (ix2 k ((((cfg0.win 6).blk t).view.emb y) 1))
    refine congrArg (V c main_v19) (funext fun a => Fin.ext ?_)
    match a with
    | ⟨0, _⟩ => show win0_3.index t (0 : Fin 2) * 128 + 1 * k.val = k.val; omega
    | ⟨1, _⟩ => show win0_3.index t (1 : Fin 2) * 256 + 1 * (y 1).val = win0_6.index t (1 : Fin 2) * 256 + 1 * (y 1).val; omega
  · intro k
    show V c main_v20 (((cfg0.win 4).blk t).view.emb (ix2 k (y 1))) = V c main_v20 (ix2 k ((((cfg0.win 6).blk t).view.emb y) 1))
    refine congrArg (V c main_v20) (funext fun a => Fin.ext ?_)
    match a with
    | ⟨0, _⟩ => show win0_4.index t (0 : Fin 2) * 128 + 1 * k.val = k.val; omega
    | ⟨1, _⟩ => show win0_4.index t (1 : Fin 2) * 256 + 1 * (y 1).val = win0_6.index t (1 : Fin 2) * 256 + 1 * (y 1).val; omega
  · show V c main_v21 (((cfg0.win 5).blk t).view.emb (ix2 (0 : Fin 1) (y 1))) = V c main_v21 (ix2 (0 : Fin 1) ((((cfg0.win 6).blk t).view.emb y) 1))
    refine congrArg (V c main_v21) (funext fun a => Fin.ext ?_)
    match a with
    | ⟨0, _⟩ => show win0_5.index t (0 : Fin 2) * 1 + 1 * 0 = 0; omega
    | ⟨1, _⟩ => show win0_5.index t (1 : Fin 2) * 256 + 1 * (y 1).val = win0_6.index t (1 : Fin 2) * 256 + 1 * (y 1).val; omega

/-- An index of the output is in point `t`'s block iff each coordinate is in the block's range on its axis. -/
theorem mem_blk (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v22).slice (win0_6.rect t)).set ↔ _
  rw [View.set_slice_whole, Rect.mem_set_unit]
  exact Iff.rfl

/-- The ten row blocks tile the output: row `i` is in the block of the point whose row block is `i / 5000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- THE OUTPUT ARRAY after the region: the layer of the arrays as the region finds them. -/
theorem final (c : Dev nD) : (dat0 V c).arrAt 6 cfg0.N = entryLayer V c :=
  (dat0 V c).arrAt_eq_of_cover 6 (entryLayer V c) (fun t _ => flushed_eq V c t) (cover)

end Cert.SageKernel.Region0

end
-- ==== Proof.Body1.lean ====
/-
  What one grid point of region 1 computes. The body loads a block of 5000 rows of the node features, of the summed
  messages and of the counts, the two weight matrices and the bias row whole, and stores one block of the output. Read
  entry by entry over the extended reals, the stored block is the layer of the specification applied to the loaded
  blocks: each of the two matrix products is the plain sum over the contracted axis (the accumulator is the zero
  splat), the count column is broadcast along its row, the bias row along its column.
-/
import proofs.«162847_j16174846836858_1_alg».proof.Proof.Gen.KernelIdeal.Frame
import proofs.«162847_j16174846836858_1_alg».proof.Proof.Spec
import proofs.«162847_j16174846836858_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.SageKernel.Body1

open Cert.KernelIdeal Cert.KernelIdeal.Gen Idealize.ShloMosaic Idealize.ShloMosaic.ValueIdx

local notation "dd" => dot_S5000x256_S256x64_S5000x64_1_0_0_1_n_n

/-! ## The matrix product's operand indices -/

theorem lhs_0 (i : S5000x64.Idx) (q : (dot_S5000x256_S256x64_S5000x64_1_0_0_1_n_n).contr.Idx) : ((dot_S5000x256_S256x64_S5000x64_1_0_0_1_n_n).lhsIdx i q 0).val = (i 0).val := by
  unfold DotDims.lhsIdx
  rw [dif_neg (show ¬(0 : Fin S5000x256.rank) ∈ (dot_S5000x256_S256x64_S5000x64_1_0_0_1_n_n).lhsBatch by decide), dif_pos (show (0 : Fin S5000x256.rank) ∈ (dot_S5000x256_S256x64_S5000x64_1_0_0_1_n_n).lhsNonContracting by decide)]
  rfl
theorem lhs_1 (i : S5000x64.Idx) (q : (dot_S5000x256_S256x64_S5000x64_1_0_0_1_n_n).contr.Idx) : ((dot_S5000x256_S256x64_S5000x64_1_0_0_1_n_n).lhsIdx i q 1).val = (q ⟨0, by decide⟩).val :=
  (dot_S5000x256_S256x64_S5000x64_1_0_0_1_n_n).lhsIdx_val_of_single rfl i q
theorem rhs_0 (i : S5000x64.Idx) (q : (dot_S5000x256_S256x64_S5000x64_1_0_0_1_n_n).contr.Idx) : ((dot_S5000x256_S256x64_S5000x64_1_0_0_1_n_n).rhsIdx i q 0).val = (q ⟨0, by decide⟩).val :=
  (dot_S5000x256_S256x64_S5000x64_1_0_0_1_n_n).rhsIdx_val_of_single rfl i q
theorem rhs_1 (i : S5000x64.Idx) (q : (dot_S5000x256_S256x64_S5000x64_1_0_0_1_n_n).contr.Idx) : ((dot_S5000x256_S256x64_S5000x64_1_0_0_1_n_n).rhsIdx i q 1).val = (i 1).val := by
  unfold DotDims.rhsIdx
  rw [dif_neg (show ¬(1 : Fin S256x64.rank) ∈ (dot_S5000x256_S256x64_S5000x64_1_0_0_1_n_n).rhsBatch by decide), dif_pos (show (1 : Fin S256x64.rank) ∈ (dot_S5000x256_S256x64_S5000x64_1_0_0_1_n_n).rhsNonContracting by decide)]
  rfl

/-- A block's matrix product into the zero splat, at row `r` and column `j`: the sum over the contracted axis of the
    left operand's row `r` against the right operand's column `j`. -/
theorem matmul_apply (L : FVec Ideal S5000x256 .f32) (Rt : FVec Ideal S256x64 .f32) (r : Fin 5000) (j : Fin 64) :
    matmul (F := Ideal) (dot_S5000x256_S256x64_S5000x64_1_0_0_1_n_n) none L Rt (constant S5000x64 .f32 0x00000000#32) (ix2 r j)
      = ∑ k : Fin 256, L (ix2 r k) * Rt (ix2 k j) := by
  simp only [matmul]
  rw [Ideal.matmul_constant_zero_apply, ← Equiv.sum_comp (ValueIdx.contrEquiv1 (dot_S5000x256_S256x64_S5000x64_1_0_0_1_n_n) 256 rfl rfl).symm]
  refine Finset.sum_congr rfl fun k _ => ?_
  have hk := ValueIdx.contrEquiv1_symm_val (dot_S5000x256_S256x64_S5000x64_1_0_0_1_n_n) 256 rfl rfl k
  have el : (dot_S5000x256_S256x64_S5000x64_1_0_0_1_n_n).lhsIdx (ix2 r j) ((ValueIdx.contrEquiv1 (dot_S5000x256_S256x64_S5000x64_1_0_0_1_n_n) 256 rfl rfl).symm k) = ix2 r k := funext fun a => Fin.ext (by
    match a with
    | ⟨0, _⟩ => exact lhs_0 _ _
    | ⟨1, _⟩ => exact (lhs_1 _ _).trans hk)
  have er : (dot_S5000x256_S256x64_S5000x64_1_0_0_1_n_n).rhsIdx (ix2 r j) ((ValueIdx.contrEquiv1 (dot_S5000x256_S256x64_S5000x64_1_0_0_1_n_n) 256 rfl rfl).symm k) = ix2 k j := funext fun a => Fin.ext (by
    match a with
    | ⟨0, _⟩ => exact (rhs_0 _ _).trans hk
    | ⟨1, _⟩ => exact rhs_1 _ _)
  rw [el, er]

/-! ## The stored block -/

/-- The value the body stores, as a function of the six loaded blocks (the counts, the summed messages, the first
    weight matrix, the features, the second weight matrix, the bias row): the specification's layer of them. -/
theorem payload_eq (v0 : Vec Ideal S5000x1 .f32) (v2 : Vec Ideal S5000x256 .f32) (v8 : Vec Ideal S256x64 .f32)
    (v11 : Vec Ideal S5000x256 .f32) (v12 : Vec Ideal S256x64 .f32) (v16 : Vec Ideal S1x64 .f32) :
    k1_pay1 (F := Ideal) v0 v2 v8 v11 v12 v16
      = Cert.Sage.linear (N := 5000) (K := 256) (H := 64) v11 v2 v0 v8 v12 (fun j => v16 (ix2 (0 : Fin 1) j)) := by
  funext i
  obtain ⟨r, j, rfl⟩ : ∃ (r : Fin 5000) (j : Fin 64), i = ix2 r j := ⟨i 0, i 1, eq_ix2 i⟩
  rw [Cert.Sage.linear_apply]
  unfold k1_pay1 Cert.Sage.pre
  dsimp only
  simp only [shapeCast_self]
  rw [addf_apply, addf_apply, matmul_apply, matmul_apply, broadcastTo_1b_ab_apply]
  refine congrArg₂ (· + ·) (congrArg₂ (· + ·) (Finset.sum_congr rfl fun k _ => ?_) rfl) rfl
  rw [divf_apply, Cert.Keepdims.broadcastTo_a1_ab_apply, maximumf_apply, broadcast_apply]
  rfl

theorem origin_zero : (![0, 0] : Fin 2 → Nat) = fun _ => 0 := funext fun a => by fin_cases a <;> rfl

/-- What the body leaves in the output window's buffer, from the input windows' blocks in operand order (features,
    summed messages, counts, the two weight matrices, the bias row): its one store covers the whole block and every
    load reads a whole block, so it is the stored value of those blocks. -/
theorem out_eq {F : FTy → Type} [FloatOps F] (x0 : Vec F S5000x256 .f32) (x1 : Vec F S5000x256 .f32) (x2 : Vec F S5000x1 .f32)
    (x3 : Vec F S256x64 .f32) (x4 : Vec F S256x64 .f32) (x5 : Vec F S1x64 .f32) :
    out1_6 x0 x1 x2 x3 x4 x5 = k1_pay1 x2 x1 x3 x0 x4 x5 := by
  unfold out1_6
  rw [View.canon_unit_zero origin_zero]
  simp only [View.ld_unit_zero (S := S5000x1) origin_zero, View.ld_unit_zero (S := S5000x256) origin_zero,
    View.ld_unit_zero (S := S256x64) origin_zero, View.ld_unit_zero (S := S1x64) origin_zero]

end Cert.SageKernel.Body1

end
-- ==== Proof.Region1.lean ====
/-
  Region 1's output array after the region has run, as ONE function of the arrays the region finds when it is
  entered. The grid has ten points; point `t` sees rows `5000 t … 5000 t + 4999` of the features, of the summed
  messages and of the counts, the weight matrices and the bias whole, and writes back rows `5000 t …` of the output. A
  layer's entry depends on one row only, so what point `t` writes back is block `t` of the layer of the WHOLE arrays;
  the ten blocks tile the output, so the output ends holding that layer.
-/
import proofs.«162847_j16174846836858_1_alg».proof.Proof.Gen.KernelIdeal.Frame
import proofs.«162847_j16174846836858_1_alg».proof.Proof.Body1
import proofs.«162847_j16174846836858_1_alg».proof.Proof.SpecRows
import Idealize.ShloMosaic.Lib.Pipeline.Value
import Idealize.ShloMosaic.Lib.ValueIdx

set_option maxRecDepth 16384

noncomputable section

namespace Cert.SageKernel.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The layer of the arrays as the region finds them. -/
def entryLayer (c : Dev nD) : S50000x64.Idx → EReal :=
  Cert.Sage.linear (N := 50000) (K := 256) (H := 64) (V c main_v22) (V c main_v32) (V c main_v8) (V c main_v33) (V c main_v34)
    (fun j => V c main_v35 (ix2 (0 : Fin 1) j))

/-- The printed index maps, decided over the ten grid points: the three row-blocked inputs move with the output's
    row block, every other block index is zero. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every row block of the output is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- WHAT POINT `t` WRITES BACK is block `t` of the layer of the arrays as the region finds them. -/
theorem flushed_eq (c : Dev nD) (t : Fin cfg1.N) :
    (dat1 V c).flushed 6 t = ((cfg1.win 6).blk t).view.read (Elt Ideal) (entryLayer V c) := by
  show (cfg1.win 6).cut (grid1.coords t) ((dat1 V c).after 6 t) = _
  rw [after1_6, Body1.out_eq, Body1.payload_eq]
  obtain ⟨e00, e01, e10, e11, e20, e21, e30, e31, e40, e41, e50, e51, e61, e6b⟩ := idx_facts t
  funext y
  show (Cert.Sage.pre (iblk1 V c 0 t) (iblk1 V c 1 t) (iblk1 V c 2 t) (iblk1 V c 3 t) (iblk1 V c 4 t)
      (fun j => iblk1 V c 5 t (ix2 (0 : Fin 1) j)) (y 0) (y 1))
    = (Cert.Sage.pre (V c main_v22) (V c main_v32) (V c main_v8) (V c main_v33) (V c main_v34)
      (fun j => V c main_v35 (ix2 (0 : Fin 1) j)) ((((cfg1.win 6).blk t).view.emb y) 0) ((((cfg1.win 6).blk t).view.emb y) 1))
  have hy0 : (y 0).val < 5000 := (y 0).isLt
  have hy1 : (y 1).val < 64 := (y 1).isLt
  refine (Cert.Sage.pre_congr _ _ _ _ _ _ _ _ _ _ _ _ _ _ _ _ ?_ ?_ ?_ ?_ ?_ ?_)
  · intro k
    show V c main_v22 (((cfg1.win 0).blk t).view.emb (ix2 (y 0) k)) = V c main_v22 (ix2 ((((cfg1.win 6).blk t).view.emb y) 0) k)
    refine congrArg (V c main_v22) (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 256 + 1 * k.val = k.val; omega
  · intro k
    show V c main_v32 (((cfg1.win 1).blk t).view.emb (ix2 (y 0) k)) = V c main_v32 (ix2 ((((cfg1.win 6).blk t).view.emb y) 0) k)
    refine congrArg (V c main_v32) (funext fun a => Fin.ext ?_)
    match a with
    | ⟨0, _⟩ => show win1_1.index t (0 : Fin 2) * 5000 + 1 * (y 0).val = win1_6.index t (0 : Fin 2) * 5000 + 1 * (y 0).val; omega
    | ⟨1, _⟩ => show win1_1.index t (1 : Fin 2) * 256 + 1 * k.val = k.val; omega
  · show V c main_v8 (((cfg1.win 2).blk t).view.emb (ix2 (y 0) (0 : Fin 1))) = V c main_v8 (ix2 ((((cfg1.win 6).blk t).view.emb y) 0) (0 : Fin 1))
    refine congrArg (V c main_v8) (funext fun a => Fin.ext ?_)
    match a with
    | ⟨0, _⟩ => show win1_2.index t (0 : Fin 2) * 5000 + 1 * (y 0).val = win1_6.index t (0 : Fin 2) * 5000 + 1 * (y 0).val; omega
    | ⟨1, _⟩ => show win1_2.index t (1 : Fin 2) * 1 + 1 * 0 = 0; omega
  · intro k
    show V c main_v33 (((cfg1.win 3).blk t).view.emb (ix2 k (y 1))) = V c main_v33 (ix2 k ((((cfg1.win 6).blk t).view.emb y) 1))
    refine congrArg (V c main_v33) (funext fun a => Fin.ext ?_)
    match a with
    | ⟨0, _⟩ => show win1_3.index t (0 : Fin 2) * 256 + 1 * k.val = k.val; omega
    | ⟨1, _⟩ => show win1_3.index t (1 : Fin 2) * 64 + 1 * (y 1).val = win1_6.index t (1 : Fin 2) * 64 + 1 * (y 1).val; omega
  · intro k
    show V c main_v34 (((cfg1.win 4).blk t).view.emb (ix2 k (y 1))) = V c main_v34 (ix2 k ((((cfg1.win 6).blk t).view.emb y) 1))
    refine congrArg (V c main_v34) (funext fun a => Fin.ext ?_)
    match a with
    | ⟨0, _⟩ => show win1_4.index t (0 : Fin 2) * 256 + 1 * k.val = k.val; omega
    | ⟨1, _⟩ => show win1_4.index t (1 : Fin 2) * 64 + 1 * (y 1).val = win1_6.index t (1 : Fin 2) * 64 + 1 * (y 1).val; omega
  · show V c main_v35 (((cfg1.win 5).blk t).view.emb (ix2 (0 : Fin 1) (y 1))) = V c main_v35 (ix2 (0 : Fin 1) ((((cfg1.win 6).blk t).view.emb y) 1))
    refine congrArg (V c main_v35) (funext fun a => Fin.ext ?_)
    match a with
    | ⟨0, _⟩ => show win1_5.index t (0 : Fin 2) * 1 + 1 * 0 = 0; omega
    | ⟨1, _⟩ => show win1_5.index t (1 : Fin 2) * 64 + 1 * (y 1).val = win1_6.index t (1 : Fin 2) * 64 + 1 * (y 1).val; omega

/-- An index of the output is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v36).slice (win1_6.rect t)).set ↔ _
  rw [View.set_slice_whole, Rect.mem_set_unit]
  exact Iff.rfl

/-- The ten row blocks tile the output: row `i` is in the block of the point whose row block is `i / 5000`. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE OUTPUT ARRAY after the region: the layer of the arrays as the region finds them. -/
theorem final (c : Dev nD) : (dat1 V c).arrAt 6 cfg1.N = entryLayer V c :=
  (dat1 V c).arrAt_eq_of_cover 6 (entryLayer V c) (fun t _ => flushed_eq V c t) (cover)

end Cert.SageKernel.Region1

end
-- ==== Proof.LibScatterColumn.lean ====
/-
  A COLUMN SCATTER-ADD IS THE VECTOR SCATTER-ADD VIEWED AS A COLUMN (a general lemma, over the extended reals).

  An accumulating scatter with one scalar start index per update can be written in two ways.

  * The VECTOR form: the operand is a vector of extent N, the updates a vector of extent E, the scatter indices an
    [E, 1] array whose second axis is the index vector's. There is no window axis; the operand's only axis is an
    inserted window axis and is the axis the start index addresses. Update e lands at operand position idx[e, 0].

  * The COLUMN form: the operand is an [N, 1] column, the updates an [E, 1] column, the scatter indices the same
    [E, 1] array. The updates' second axis is a window axis of extent 1 that goes to the operand's second axis; the
    operand's first axis is inserted and is the one the start index addresses. Update (e, 0) lands at operand position
    (idx[e, 0], 0 + 0).

  In both forms the start index is read signed and is not clamped, and an update whose position falls outside the
  operand is dropped. At the ideal instance the result at a position is the operand there plus the sum of the updates
  that land there. So when the operands agree (x n = x' (n, 0)) and the updates agree (u e = u' (e, 0)), the two results
  agree: result n of the vector form is result (n, 0) of the column form.

  The proof: an update index j lands on position i exactly when start + window coordinate equals i's coordinate on
  every axis ('resultIdx?_eq_some_iff': the in-range test is then implied by i's own bounds). For the two sets of
  dimension numbers the starts and window coordinates are computed axis by axis ('vec_start' … 'col_window1'); on the
  column's second axis the condition reads 0 + (j 1) = 0, which holds because that axis has extent 1. Hence both
  "lands on n" conditions are the same equation idx[j 0, 0] = n ('vec_hit', 'col_hit'), and the bijection
  e ↦ (e, 0) between the two update index sets ('colEquiv') carries one sum to the other. All extents stay symbolic.
-/
import Idealize.ShloMosaic.Lib.ValueIdx
import Idealize.ShloMosaic.PureOps.Ideal

open scoped BigOperators
open Idealize.ShloMosaic Idealize.ShloMosaic.ValueIdx

namespace Cert.ScatterColumn

/-- An update index j lands on operand index i exactly when, on every operand axis, the (signed, unclamped) start
    plus the window coordinate is i's coordinate. The in-range condition of the landing position follows from i's
    own bounds, so it does not appear on the right. Holds for any scatter dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      apply Fin.ext
      have h1 := hi a
      have h2 := h a
      show (d.start j idx a + (d.window j a : ℤ)).toNat = (i a).val
      omega
  · rename_i h
    constructor
    · intro hi; cases hi
    · intro hi
      exfalso
      apply h
      intro a
      have h1 := hi a
      have h2 := (i a).isLt
      omega

/-- The VECTOR form's dimension numbers: operand [N], scatter indices [E, 1] (index vector on axis 1), updates [E];
    no update window axis, operand axis 0 inserted and addressed by the one start-index component. -/
abbrev vecDims (N E : ℕ) (w1 : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ := ⟨[], [0], [0], 1, w1⟩

/-- The COLUMN form's dimension numbers: operand [N, 1], scatter indices [E, 1] (index vector on axis 1), updates
    [E, 1]; update axis 1 is a window axis going to operand axis 1, operand axis 0 inserted and addressed by the one
    start-index component. -/
abbrev colDims (N E : ℕ) (w2 : ScatterDims.WF (⟨2, ![N, 1]⟩ : Shape) ⟨2, ![E, 1]⟩ ⟨2, ![E, 1]⟩ [1] [0] [0] 1) :
    ScatterDims (⟨2, ![N, 1]⟩ : Shape) ⟨2, ![E, 1]⟩ ⟨2, ![E, 1]⟩ := ⟨[1], [0], [0], 1, w2⟩

/-- Vector form: the start on the operand's axis for update e is the scatter index idx[e, 0], read signed. -/
theorem vec_start {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) :
    (vecDims N E w1).start j idx 0 = (idx (ix2 (j 0) (0 : Fin 1))).toInt := by
  have hmem : (0 : Fin 1) ∈ (vecDims N E w1).scatterDimsToOperandDims := List.mem_singleton.mpr rfl
  unfold ScatterDims.start
  rw [dif_pos hmem]
  have hsi : (vecDims N E w1).siIdx j ⟨List.idxOf (0 : Fin 1) (vecDims N E w1).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Vector form: the operand's axis is an inserted window axis, so the window coordinate on it is 0. -/
theorem vec_window {N E : ℕ} (w1 : ScatterDims.WF (⟨1, ![N]⟩ : Shape) ⟨2, ![E, 1]⟩ ⟨1, ![E]⟩ [] [0] [0] 1)
    (j : (⟨1, ![E]⟩ : Shape).Idx) : (vecDims N E w1).window j 0 = 0 := by
  rfl

/-- Column form: the start on operand axis 0 for update (e, k) is the scatter index idx[e, 0], read signed. -/
theorem col_start0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 0 = (idx (ix2 (j 0) (0 : Fin 1))).toInt := by
  have hmem : (0 : Fin 2) ∈ (colDims N E w2).scatterDimsToOperandDims := List.mem_singleton.mpr rfl
  unfold ScatterDims.start
  rw [dif_pos hmem]
  have hsi : (colDims N E w2).siIdx j ⟨List.idxOf (0 : Fin 2) (colDims N E w2).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Column form: operand axis 1 is not addressed by the start index, so the start on it is 0. -/
theorem col_start1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 1 = 0 := by
  rfl

/-- Column form: operand axis 0 is an inserted window axis, so the window coordinate on it is 0. -/
theorem col_window0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 0 = 0 := by
  rfl

/-- Column form: the window coordinate on operand axis 1 is the update index's coordinate on its window axis 1. -/
theorem col_window1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 1 = (j 1).val := by
  rfl

/-- Vector form: update e lands on position n exactly when idx[e, 0], read signed, is n. -/
theorem vec_hit {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) (n : Fin N) :
    (vecDims N E w1).resultIdx? j idx = some (ix1 n) ↔ (idx (ix2 (j 0) (0 : Fin 1))).toInt = (n.val : ℤ) := by
  rw [resultIdx?_eq_some_iff]
  constructor
  · intro h
    have h0 := h 0
    rw [vec_start, vec_window] at h0
    simp only [Nat.cast_zero, add_zero] at h0
    exact h0
  · intro h a
    obtain rfl : a = 0 := Subsingleton.elim _ _
    rw [vec_start, vec_window]
    simp only [Nat.cast_zero, add_zero]
    exact h

/-- Column form: update (e, k) lands on position (n, 0) exactly when idx[e, 0], read signed, is n: on the second
    axis the condition is 0 + k = 0, true because that axis has extent 1. -/
theorem col_hit {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) (n : Fin N) :
    (colDims N E w2).resultIdx? j idx = some (ix2 n (0 : Fin 1)) ↔
      (idx (ix2 (j 0) (0 : Fin 1))).toInt = (n.val : ℤ) := by
  rw [resultIdx?_eq_some_iff]
  constructor
  · intro h
    have h0 := h 0
    rw [col_start0, col_window0] at h0
    simp only [Nat.cast_zero, add_zero] at h0
    exact h0
  · intro h a
    match a with
    | ⟨0, _⟩ =>
      show (colDims N E w2).start j idx 0 + (((colDims N E w2).window j 0 : ℕ) : ℤ) = _
      rw [col_start0, col_window0]
      simp only [Nat.cast_zero, add_zero]
      exact h
    | ⟨1, _⟩ =>
      show (colDims N E w2).start j idx 1 + (((colDims N E w2).window j 1 : ℕ) : ℤ) = _
      rw [col_start1, col_window1]
      have := idx2_lt1 j
      show (0 : ℤ) + (((j 1).val : ℕ) : ℤ) = ((0 : ℕ) : ℤ)
      omega

/-- The update index sets of the two forms correspond by e ↦ (e, 0): the column's second axis has extent 1. -/
def colEquiv (E : ℕ) : (⟨1, ![E]⟩ : Shape).Idx ≃ (⟨2, ![E, 1]⟩ : Shape).Idx where
  toFun j := ix2 (j 0) (0 : Fin 1)
  invFun j := ix1 (j 0)
  left_inv j := (eq_ix1 j).symm
  right_inv j := by
    have h1 : (j 1) = (0 : Fin 1) := Fin.ext (by have := idx2_lt1 j; show (j 1).val = 0; omega)
    have h2 : j = ix2 (j 0) (0 : Fin 1) := by
      funext a
      match a with
      | ⟨0, _⟩ => rfl
      | ⟨1, _⟩ => exact h1
    exact h2.symm

/-- A COLUMN SCATTER-ADD IS THE VECTOR SCATTER-ADD VIEWED AS A COLUMN. With the same [E, 1] scatter indices, operands
    that agree (x n = x' (n, 0)) and updates that agree (u e = u' (e, 0)), the accumulating scatter of the vector
    updates into the vector operand, read at n, equals the accumulating scatter of the column updates (window axis of
    extent 1) into the column operand, read at (n, 0). Extents N and E are arbitrary; the well-formedness proofs of
    the two sets of dimension numbers are arbitrary. -/
theorem scatterAdd_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : (⟨1, ![N]⟩ : Shape).Idx → EReal) (x' : (⟨2, ![N, 1]⟩ : Shape).Idx → EReal)
    (u : (⟨1, ![E]⟩ : Shape).Idx → EReal) (u' : (⟨2, ![E, 1]⟩ : Shape).Idx → EReal)
    (idx : IVec ⟨2, ![E, 1]⟩ 32)
    (hx : ∀ n : Fin N, x (ix1 n) = x' (ix2 n (0 : Fin 1)))
    (hu : ∀ e : Fin E, u (ix1 e) = u' (ix2 e (0 : Fin 1))) (n : Fin N) :
    Ideal.hostScatterAdd (⟨[], [0], [0], 1, w1⟩ : ScatterDims (⟨1, ![N]⟩ : Shape) ⟨2, ![E, 1]⟩ ⟨1, ![E]⟩) x idx u (ix1 n)
      = Ideal.hostScatterAdd (⟨[1], [0], [0], 1, w2⟩ : ScatterDims (⟨2, ![N, 1]⟩ : Shape) ⟨2, ![E, 1]⟩ ⟨2, ![E, 1]⟩)
          x' idx u' (ix2 n (0 : Fin 1)) := by
  show x (ix1 n) + ∑ j ∈ Finset.univ.filter (fun j => (vecDims N E w1).resultIdx? j idx = some (ix1 n)), u j
    = x' (ix2 n (0 : Fin 1)) +
      ∑ j ∈ Finset.univ.filter (fun j => (colDims N E w2).resultIdx? j idx = some (ix2 n (0 : Fin 1))), u' j
  rw [hx n]
  congr 1
  refine Finset.sum_equiv (colEquiv E) ?_ ?_
  · intro j
    rw [Finset.mem_filter, Finset.mem_filter, vec_hit, col_hit]
    simp only [Finset.mem_univ, true_and]
    rfl
  · intro j _
    rw [eq_ix1 j]
    exact hu (j 0)

/-- The column lemma in the host operation's own spelling, over arbitrary extents: the vector scatter-add read at `n`
    is the column scatter-add read at `(n, 0)`. -/
theorem host_scatter_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : FVec Ideal ⟨1, ![N]⟩ .f32) (x' : FVec Ideal ⟨2, ![N, 1]⟩ .f32)
    (u : FVec Ideal ⟨1, ![E]⟩ .f32) (u' : FVec Ideal ⟨2, ![E, 1]⟩ .f32)
    (idx idx' : IVec ⟨2, ![E, 1]⟩ 32) (hidx : idx = idx')
    (hx : ∀ n : Fin N, x (ix1 n) = x' (ix2 n (0 : Fin 1))) (hu : ∀ e : Fin E, u (ix1 e) = u' (ix2 e (0 : Fin 1))) (n : Fin N) :
    Host.scatterAdd (F := Ideal) (⟨[], [0], [0], 1, w1⟩ : ScatterDims (⟨1, ![N]⟩ : Shape) ⟨2, ![E, 1]⟩ ⟨1, ![E]⟩) x idx u (ix1 n)
      = Host.scatterAdd (F := Ideal) (⟨[1], [0], [0], 1, w2⟩ : ScatterDims (⟨2, ![N, 1]⟩ : Shape) ⟨2, ![E, 1]⟩ ⟨2, ![E, 1]⟩) x' idx' u' (ix2 n (0 : Fin 1)) := by
  subst hidx
  exact scatterAdd_column w1 w2 x x' u u' idx hx hu n

end Cert.ScatterColumn
-- ==== Proof.StagesDefs.lean ====
/-
  The two functions of the edge list that the kernel program spells differently from the reference, or applies to
  its own hidden array. The counts: the kernel scatters a vector of ones by destination into a vector of zeros and
  views it as an `[N, 1]` column, the reference scatters a column of ones into a column; by the general lemma on
  column scatter-adds they are one column. The second layer's summed messages: the rows of the hidden array at the
  (wrapped) sources scatter-added onto the destinations — the reference's stage of that name is this function of the
  reference's hidden array.
-/
import proofs.«162847_j16174846836858_1_alg».proof.Proof.Gen.KernelIdeal.Frame
import proofs.«162847_j16174846836858_1_alg».proof.Proof.Gen.ReferenceIdeal.Read
import proofs.«162847_j16174846836858_1_alg».proof.Proof.LibKeepdims
import proofs.«162847_j16174846836858_1_alg».proof.Proof.LibScatterColumn
import Idealize.ShloMosaic.Lib.StableHlo.Run
import Idealize.ShloMosaic.Lib.ValueIdx

set_option maxRecDepth 16384

noncomputable section

namespace Cert.SageKernel.Stages

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v1 val_main_v3 val_main_v13 val_main_v14 val_main_v15 val_main_v16 val_main_v17 val_main_v22
  val_main_v27 val_main_v30 val_main_v31 val_main_v32 val_main_v33 val_main_v34 val_main_v35 val_main_v36 val_main_v37 val_main_v38
  val_main_v39 val_main_v40 val_main_v41 val_main_v42 val_main_v43 val_main_v44 val_main_v49 val_main_v54 val_main_c_4 val_main_c_5
  val_main_cst_1 val_main_cst_2 val_main_cst_6 val_main_cst_7 val_main_cst_8)

/-! ## The two functions the kernel program spells differently from the reference -/

/-- The number of edges arriving at each node, as an `[N, 1]` column: ones scattered by destination into a vector of
    zeros, the vector then viewed as a column. -/
def countColumn (dst : (⟨S800000, .i32⟩ : BufTy).Contents (Elt Ideal)) : (⟨S50000x1, .f32⟩ : BufTy).Contents (Elt Ideal) :=
  shapeCast S50000x1 (Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))) shapeCasts_S50000_S50000x1

/-- The summed messages of the second layer as a function of the hidden array `H` and of the edge list's two rows: the
    rows of `H` at the (wrapped) sources, scatter-added onto the destinations. -/
def hiddenSum (H : (⟨S50000x256, .f32⟩ : BufTy).Contents (Elt Ideal)) (src dst : (⟨S800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 H
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The reference's summed messages of the second layer are that function of ITS hidden array. -/
theorem hiddenSum_ref (x0 : (⟨S50000x128, .f32⟩ : BufTy).Contents (Elt Ideal)) (x1 : (⟨S2x800000, .i32⟩ : BufTy).Contents (Elt Ideal))
    (x2 x3 : (⟨S256x128, .f32⟩ : BufTy).Contents (Elt Ideal)) (x4 : (⟨S256, .f32⟩ : BufTy).Contents (Elt Ideal)) :
    hiddenSum (val_main_v30 (F := Ideal) x0 x1 x2 x3 x4) (val_main_v1 (F := Ideal) x1) (val_main_v3 (F := Ideal) x1)
      = val_main_v40 (F := Ideal) x0 x1 x2 x3 x4 := by
  unfold val_main_v40 val_main_v39 val_main_v38 val_main_v37 val_main_v36 val_main_v35 val_main_v34 val_main_v33 val_main_v32
    val_main_v31 val_main_c_4 val_main_c_5 val_main_cst_6 hiddenSum
  rfl

/-- The kernel program's count column is the reference's. -/
theorem countColumn_ref (x1 : (⟨S2x800000, .i32⟩ : BufTy).Contents (Elt Ideal)) :
    countColumn (val_main_v3 (F := Ideal) x1) = val_main_v17 (F := Ideal) x1 := by
  funext i
  obtain ⟨n, q, rfl⟩ : ∃ (n : Fin 50000) (q : Fin 1), i = ix2 n q := ⟨i 0, i 1, eq_ix2 i⟩
  obtain rfl : q = 0 := Subsingleton.elim _ _
  unfold countColumn val_main_v17 val_main_v16 val_main_v15 val_main_v14 val_main_cst_1 val_main_cst_2
  generalize val_main_v3 (F := Ideal) x1 = dst
  rw [Cert.Keepdims.shapeCast_a_a1_apply]
  exact Cert.ScatterColumn.host_scatter_column (N := 50000) (E := 800000)
    scatter_S50000_S800000x1_S800000_n_0_0_1.wf Cert.ReferenceIdeal.scatter_S50000x1_S800000x1_S800000x1_1_0_0_1.wf
    _ _ _ _ _ _ rfl (fun _ => rfl) (fun _ => rfl) n

/-- The reference computes the counts twice, once per layer, by the same operations. -/
theorem count_twice (x1 : (⟨S2x800000, .i32⟩ : BufTy).Contents (Elt Ideal)) :
    val_main_v17 (F := Ideal) x1 = val_main_v44 (F := Ideal) x1 := by
  unfold val_main_v17 val_main_v44 val_main_v15 val_main_v42 val_main_v16 val_main_v43 val_main_v14 val_main_v41
    val_main_cst_1 val_main_cst_2 val_main_cst_7 val_main_cst_8
  rfl

end Cert.SageKernel.Stages

end
-- ==== Proof.StagesFirstA.lean ====
/-
  After the first stretch of the kernel program's host operations, over an arbitrary valuation `W` of the buffers: the
  argument arrays are untouched, and the two rows of the edge list (the edges' sources and destinations) are the
  reference's stages of the same name.
-/
import proofs.«162847_j16174846836858_1_alg».proof.Proof.Gen.KernelIdeal.Frame
import proofs.«162847_j16174846836858_1_alg».proof.Proof.Gen.ReferenceIdeal.Read
import Idealize.ShloMosaic.Lib.StableHlo.Run
import Idealize.ShloMosaic.Lib.ValueIdx

set_option maxRecDepth 16384

noncomputable section

namespace Cert.SageKernel.Stages

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v1 val_main_v3 val_main_v13 val_main_v14 val_main_v15 val_main_v16 val_main_v17 val_main_v22
  val_main_v27 val_main_v30 val_main_v31 val_main_v32 val_main_v33 val_main_v34 val_main_v35 val_main_v36 val_main_v37 val_main_v38
  val_main_v39 val_main_v40 val_main_v41 val_main_v42 val_main_v43 val_main_v44 val_main_v49 val_main_v54 val_main_c_4 val_main_c_5
  val_main_cst_1 val_main_cst_2 val_main_cst_6 val_main_cst_7 val_main_cst_8)

/-! ## After the first stretch of host operations -/

variable (W : Valuation τ sig (Elt Ideal))

set_option maxHeartbeats 4000000 in
theorem first_arg0 : StableHlo.after (hostOps0 (F := Ideal)) W (Proc.devRef .tc main_arg0) = W (Proc.devRef .tc main_arg0) := by
  after_results_simp
set_option maxHeartbeats 4000000 in
theorem first_arg5 : StableHlo.after (hostOps0 (F := Ideal)) W (Proc.devRef .tc main_arg5) = W (Proc.devRef .tc main_arg5) := by
  after_results_simp
set_option maxHeartbeats 4000000 in
theorem first_arg6 : StableHlo.after (hostOps0 (F := Ideal)) W (Proc.devRef .tc main_arg6) = W (Proc.devRef .tc main_arg6) := by
  after_results_simp
set_option maxHeartbeats 4000000 in
theorem first_arg7 : StableHlo.after (hostOps0 (F := Ideal)) W (Proc.devRef .tc main_arg7) = W (Proc.devRef .tc main_arg7) := by
  after_results_simp
set_option maxHeartbeats 4000000 in
/-- The edges' sources. -/
theorem first_v1 : StableHlo.after (hostOps0 (F := Ideal)) W (Proc.devRef .tc main_v1)
    = val_main_v1 (F := Ideal) (W (Proc.devRef .tc main_arg1)) := by
  after_results_simp <;> rfl
set_option maxHeartbeats 4000000 in
/-- The edges' destinations. -/
theorem first_v3 : StableHlo.after (hostOps0 (F := Ideal)) W (Proc.devRef .tc main_v3)
    = val_main_v3 (F := Ideal) (W (Proc.devRef .tc main_arg1)) := by
  after_results_simp <;> rfl

end Cert.SageKernel.Stages

end
-- ==== Proof.StagesFirstB.lean ====
/-
  After the first stretch of the kernel program's host operations, over an arbitrary valuation `W` of the buffers: each
  array the first region reads holds the reference's stage of the same arguments — the summed messages, the transposed
  weight matrices —, the counts in the kernel program's own form, and the bias as a row.
-/
import proofs.«162847_j16174846836858_1_alg».proof.Proof.Gen.KernelIdeal.Frame
import proofs.«162847_j16174846836858_1_alg».proof.Proof.Gen.ReferenceIdeal.Read
import proofs.«162847_j16174846836858_1_alg».proof.Proof.StagesDefs
import Idealize.ShloMosaic.Lib.StableHlo.Run
import Idealize.ShloMosaic.Lib.ValueIdx

set_option maxRecDepth 16384

noncomputable section

namespace Cert.SageKernel.Stages

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v1 val_main_v3 val_main_v13 val_main_v14 val_main_v15 val_main_v16 val_main_v17 val_main_v22
  val_main_v27 val_main_v30 val_main_v31 val_main_v32 val_main_v33 val_main_v34 val_main_v35 val_main_v36 val_main_v37 val_main_v38
  val_main_v39 val_main_v40 val_main_v41 val_main_v42 val_main_v43 val_main_v44 val_main_v49 val_main_v54 val_main_c_4 val_main_c_5
  val_main_cst_1 val_main_cst_2 val_main_cst_6 val_main_cst_7 val_main_cst_8)

/-! ## After the first stretch of host operations: the arrays the first region reads -/

variable (W : Valuation τ sig (Elt Ideal))

set_option maxHeartbeats 4000000 in
/-- The summed messages of the first layer. -/
theorem first_v18 : StableHlo.after (hostOps0 (F := Ideal)) W (Proc.devRef .tc main_v18)
    = val_main_v13 (F := Ideal) (W (Proc.devRef .tc main_arg0)) (W (Proc.devRef .tc main_arg1)) := by
  after_results_simp <;> rfl
set_option maxHeartbeats 4000000 in
/-- The counts, in the kernel program's form. -/
theorem first_v8 : StableHlo.after (hostOps0 (F := Ideal)) W (Proc.devRef .tc main_v8)
    = countColumn (val_main_v3 (F := Ideal) (W (Proc.devRef .tc main_arg1))) := by
  after_results_simp <;> rfl
set_option maxHeartbeats 4000000 in
theorem first_v19 : StableHlo.after (hostOps0 (F := Ideal)) W (Proc.devRef .tc main_v19)
    = val_main_v22 (F := Ideal) (W (Proc.devRef .tc main_arg2)) := by
  after_results_simp <;> rfl
set_option maxHeartbeats 4000000 in
theorem first_v20 : StableHlo.after (hostOps0 (F := Ideal)) W (Proc.devRef .tc main_v20)
    = val_main_v27 (F := Ideal) (W (Proc.devRef .tc main_arg3)) := by
  after_results_simp <;> rfl
set_option maxHeartbeats 4000000 in
/-- The first bias as a `[1, 256]` row. -/
theorem first_v21 : StableHlo.after (hostOps0 (F := Ideal)) W (Proc.devRef .tc main_v21)
    = shapeCast S1x256 (W (Proc.devRef .tc main_arg4)) shapeCasts_S256_S1x256 := by
  after_results_simp <;> rfl

end Cert.SageKernel.Stages

end
-- ==== Proof.StagesSecond.lean ====
/-
  After the second stretch of the kernel program's host operations, over an arbitrary valuation `W` of the buffers: the
  hidden array and the counts are untouched, the summed messages are the hidden array's rows at the sources
  scatter-added onto the destinations, and the second layer's transposed weights and bias row are read off the
  arguments.
-/
import proofs.«162847_j16174846836858_1_alg».proof.Proof.Gen.KernelIdeal.Frame
import proofs.«162847_j16174846836858_1_alg».proof.Proof.Gen.ReferenceIdeal.Read
import proofs.«162847_j16174846836858_1_alg».proof.Proof.StagesDefs
import Idealize.ShloMosaic.Lib.StableHlo.Run
import Idealize.ShloMosaic.Lib.ValueIdx

set_option maxRecDepth 16384

noncomputable section

namespace Cert.SageKernel.Stages

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v1 val_main_v3 val_main_v13 val_main_v14 val_main_v15 val_main_v16 val_main_v17 val_main_v22
  val_main_v27 val_main_v30 val_main_v31 val_main_v32 val_main_v33 val_main_v34 val_main_v35 val_main_v36 val_main_v37 val_main_v38
  val_main_v39 val_main_v40 val_main_v41 val_main_v42 val_main_v43 val_main_v44 val_main_v49 val_main_v54 val_main_c_4 val_main_c_5
  val_main_cst_1 val_main_cst_2 val_main_cst_6 val_main_cst_7 val_main_cst_8)

/-! ## After the second stretch of host operations -/

variable (W : Valuation τ sig (Elt Ideal))

set_option maxHeartbeats 4000000 in
theorem second_v22 : StableHlo.after (hostOps1 (F := Ideal)) W (Proc.devRef .tc main_v22) = W (Proc.devRef .tc main_v22) := by
  after_results_simp
set_option maxHeartbeats 4000000 in
theorem second_v8 : StableHlo.after (hostOps1 (F := Ideal)) W (Proc.devRef .tc main_v8) = W (Proc.devRef .tc main_v8) := by
  after_results_simp
set_option maxHeartbeats 4000000 in
/-- The summed messages of the second layer. -/
theorem second_v32 : StableHlo.after (hostOps1 (F := Ideal)) W (Proc.devRef .tc main_v32)
    = hiddenSum (W (Proc.devRef .tc main_v22)) (W (Proc.devRef .tc main_v1)) (W (Proc.devRef .tc main_v3)) := by
  after_results_simp <;> rfl
set_option maxHeartbeats 4000000 in
theorem second_v33 : StableHlo.after (hostOps1 (F := Ideal)) W (Proc.devRef .tc main_v33)
    = val_main_v49 (F := Ideal) (W (Proc.devRef .tc main_arg5)) := by
  after_results_simp <;> rfl
set_option maxHeartbeats 4000000 in
theorem second_v34 : StableHlo.after (hostOps1 (F := Ideal)) W (Proc.devRef .tc main_v34)
    = val_main_v54 (F := Ideal) (W (Proc.devRef .tc main_arg6)) := by
  after_results_simp <;> rfl
set_option maxHeartbeats 4000000 in
/-- The second bias as a `[1, 64]` row. -/
theorem second_v35 : StableHlo.after (hostOps1 (F := Ideal)) W (Proc.devRef .tc main_v35)
    = shapeCast S1x64 (W (Proc.devRef .tc main_arg7)) shapeCasts_S64_S1x64 := by
  after_results_simp <;> rfl

end Cert.SageKernel.Stages

end
-- ==== Proof.RefLayers.lean ====
/-
  The reference program's two layers are the specification's layer functions.

  Each layer of the reference computes, entry by entry,
      dot (A / broadcast (max C 1)) Wlᵀ  +  broadcast b  +  dot X Wrᵀ,
  the first layer followed by a maximum with 0. Read at an index (r, j) the two dot products are sums over the
  contracted coordinate k, the division and the maximum with 1 are taken at (r, k) and (r, 0), the bias is read at j,
  and the transposed weights are kept as the arrays the specification takes. The specification adds the bias last,
  the reference adds it between the two sums: the two agree by commutativity and associativity of addition on the
  extended reals (an additive commutative monoid, so no finiteness is needed).
  The summed messages, the counts and the transposed weights stay opaque arrays throughout.
-/
import proofs.«162847_j16174846836858_1_alg».proof.Proof.Gen.ReferenceIdeal.Read
import proofs.«162847_j16174846836858_1_alg».proof.Proof.Spec
import Idealize.ShloMosaic.Lib.ValueIdx
import Idealize.ShloMosaic.PureOps.Ideal.Laws

noncomputable section

namespace Cert.Sage.Ref

open Cert.ReferenceIdeal Cert.ReferenceIdeal.Read Idealize.ShloMosaic Idealize.ShloMosaic.ValueIdx

/-! ## The index functions of the layout operations and the two contractions, at an index given by coordinates -/

/-- Layer 1, first product: the left operand of entry `(r, j)` at `k` is entry `(r, k)`. -/
theorem lidx23 (r : Fin 50000) (j : Fin 256) (k : Fin 128) : lidx_main_v23 (ix2 r j) k = ix2 r k := by
  funext a; match a with | ⟨0, _⟩ => rfl | ⟨1, _⟩ => rfl
/-- Layer 1, first product: the right operand of entry `(r, j)` at `k` is entry `(k, j)`. -/
theorem ridx23 (r : Fin 50000) (j : Fin 256) (k : Fin 128) : ridx_main_v23 (ix2 r j) k = ix2 k j := by
  funext a; match a with | ⟨0, _⟩ => rfl | ⟨1, _⟩ => rfl
/-- Layer 1, second product: the left operand of entry `(r, j)` at `k` is entry `(r, k)`. -/
theorem lidx28 (r : Fin 50000) (j : Fin 256) (k : Fin 128) : lidx_main_v28 (ix2 r j) k = ix2 r k := by
  funext a; match a with | ⟨0, _⟩ => rfl | ⟨1, _⟩ => rfl
/-- Layer 1, second product: the right operand of entry `(r, j)` at `k` is entry `(k, j)`. -/
theorem ridx28 (r : Fin 50000) (j : Fin 256) (k : Fin 128) : ridx_main_v28 (ix2 r j) k = ix2 k j := by
  funext a; match a with | ⟨0, _⟩ => rfl | ⟨1, _⟩ => rfl
/-- Layer 1: the count column broadcast along the rows reads row `r`'s one entry. -/
theorem idx20 (r : Fin 50000) (k : Fin 128) : idx_main_v20 (ix2 r k) = ix2 r (0 : Fin 1) := by
  funext a; match a with | ⟨0, _⟩ => rfl | ⟨1, _⟩ => rfl
/-- Layer 1: the bias row broadcast down the rows reads the one row's entry `j`. -/
theorem idx25 (r : Fin 50000) (j : Fin 256) : idx_main_v25 (ix2 r j) = ix2 (0 : Fin 1) j := by
  funext a; match a with | ⟨0, _⟩ => rfl | ⟨1, _⟩ => rfl
/-- Layer 1: the bias as a one-row matrix reads the bias at `j`. -/
theorem idx24 (z : Fin 1) (j : Fin 256) : idx_main_v24 (ix2 z j) = ix1 j := by
  funext a; match a with | ⟨0, _⟩ => rfl

/-- Layer 2, first product: the left operand of entry `(r, j)` at `k` is entry `(r, k)`. -/
theorem lidx50 (r : Fin 50000) (j : Fin 64) (k : Fin 256) : lidx_main_v50 (ix2 r j) k = ix2 r k := by
  funext a; match a with | ⟨0, _⟩ => rfl | ⟨1, _⟩ => rfl
/-- Layer 2, first product: the right operand of entry `(r, j)` at `k` is entry `(k, j)`. -/
theorem ridx50 (r : Fin 50000) (j : Fin 64) (k : Fin 256) : ridx_main_v50 (ix2 r j) k = ix2 k j := by
  funext a; match a with | ⟨0, _⟩ => rfl | ⟨1, _⟩ => rfl
/-- Layer 2, second product: the left operand of entry `(r, j)` at `k` is entry `(r, k)`. -/
theorem lidx55 (r : Fin 50000) (j : Fin 64) (k : Fin 256) : lidx_main_v55 (ix2 r j) k = ix2 r k := by
  funext a; match a with | ⟨0, _⟩ => rfl | ⟨1, _⟩ => rfl
/-- Layer 2, second product: the right operand of entry `(r, j)` at `k` is entry `(k, j)`. -/
theorem ridx55 (r : Fin 50000) (j : Fin 64) (k : Fin 256) : ridx_main_v55 (ix2 r j) k = ix2 k j := by
  funext a; match a with | ⟨0, _⟩ => rfl | ⟨1, _⟩ => rfl
/-- Layer 2: the count column broadcast along the rows reads row `r`'s one entry. -/
theorem idx47 (r : Fin 50000) (k : Fin 256) : idx_main_v47 (ix2 r k) = ix2 r (0 : Fin 1) := by
  funext a; match a with | ⟨0, _⟩ => rfl | ⟨1, _⟩ => rfl
/-- Layer 2: the bias row broadcast down the rows reads the one row's entry `j`. -/
theorem idx52 (r : Fin 50000) (j : Fin 64) : idx_main_v52 (ix2 r j) = ix2 (0 : Fin 1) j := by
  funext a; match a with | ⟨0, _⟩ => rfl | ⟨1, _⟩ => rfl
/-- Layer 2: the bias as a one-row matrix reads the bias at `j`. -/
theorem idx51 (z : Fin 1) (j : Fin 64) : idx_main_v51 (ix2 z j) = ix1 j := by
  funext a; match a with | ⟨0, _⟩ => rfl

/-! ## The one algebraic law: the bias moves from between the two sums to after them -/

/-- `a + b + c = a + c + b` on the extended reals. -/
theorem bias_last (a b c : EReal) : a + b + c = a + c + b := add_right_comm a b c

/-! ## Layer 1 -/

/-- The first product of layer 1 at `(r, j)`: the sum over `k` of the summed message `(r, k)` divided by
    `max (count r) 1`, times the transposed weight `(k, j)`. -/
theorem sumL1 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (r : Fin 50000) (j : Fin 256) :
    (∑ k : Fin 128, val_main_v21 (F := Ideal) x0 x1 (lidx_main_v23 (ix2 r j) k) * val_main_v22 (F := Ideal) x2 (ridx_main_v23 (ix2 r j) k))
      = ∑ k : Fin 128, Ideal.div (val_main_v13 (F := Ideal) x0 x1 (ix2 r k)) (max (val_main_v17 (F := Ideal) x1 (ix2 r (0 : Fin 1))) Cert.Sage.one)
          * val_main_v22 (F := Ideal) x2 (ix2 k j) := by
  refine Finset.sum_congr rfl fun k _ => ?_
  rw [lidx23, ridx23, val_main_v21_apply, val_main_v20_apply, idx20, val_main_v19_apply, val_main_v18_apply,
    val_main_cst_3_apply, Ideal.hostDivf_def, Ideal.maximumf_def, Ideal.ofBits_def]

/-- The second product of layer 1 at `(r, j)`: the sum over `k` of the node's feature `(r, k)` times the transposed
    weight `(k, j)`. -/
theorem sumR1 (x0 : (⟨S50000x128, .f32⟩ : BufTy).Contents (Elt Ideal)) (x3 : (⟨S256x128, .f32⟩ : BufTy).Contents (Elt Ideal))
    (r : Fin 50000) (j : Fin 256) :
    (∑ k : Fin 128, x0 (lidx_main_v28 (ix2 r j) k) * val_main_v27 (F := Ideal) x3 (ridx_main_v28 (ix2 r j) k))
      = ∑ k : Fin 128, x0 (ix2 r k) * val_main_v27 (F := Ideal) x3 (ix2 k j) := by
  refine Finset.sum_congr rfl fun k _ => ?_
  rw [lidx28, ridx28]

/-- The broadcast bias of layer 1 at `(r, j)` is the bias at `j`. -/
theorem bias1 (x4 : (⟨S256, .f32⟩ : BufTy).Contents (Elt Ideal)) (r : Fin 50000) (j : Fin 256) :
    x4 (idx_main_v24 (idx_main_v25 (ix2 r j))) = x4 (ix1 j) := by
  rw [idx25, idx24]

/-- The first layer of the reference, with its maximum with 0, is the specification's rectified layer of the node
    features, the summed messages, the counts, the two transposed weight matrices and the bias. -/
theorem hidden_eq (x0 : (⟨S50000x128, .f32⟩ : BufTy).Contents (Elt Ideal)) (x1 : (⟨S2x800000, .i32⟩ : BufTy).Contents (Elt Ideal))
    (x2 x3 : (⟨S256x128, .f32⟩ : BufTy).Contents (Elt Ideal)) (x4 : (⟨S256, .f32⟩ : BufTy).Contents (Elt Ideal)) :
    val_main_v30 (F := Ideal) x0 x1 x2 x3 x4
      = Cert.Sage.rectified x0 (val_main_v13 (F := Ideal) x0 x1) (val_main_v17 (F := Ideal) x1)
          (val_main_v22 (F := Ideal) x2) (val_main_v27 (F := Ideal) x3) (fun j => x4 (ix1 j)) := by
  funext i
  obtain ⟨r, j, rfl⟩ : ∃ (r : Fin 50000) (j : Fin 256), i = ix2 r j := ⟨i 0, i 1, eq_ix2 i⟩
  rewrite [Cert.Sage.rectified_apply]
  unfold Cert.Sage.pre
  rewrite [val_main_v30_apply, val_main_v29_apply, val_main_v26_apply, val_main_v23_apply, val_main_v28_apply,
    val_main_v25_apply, val_main_v24_apply, val_main_call0_v0_apply, val_main_call0_cst_apply,
    sumL1, sumR1, bias1 x4 r j, Ideal.maximumf_def, Ideal.addf_def, Ideal.addf_def, Ideal.ofBits_def, bias_last]
  with_reducible rfl

/-! ## Layer 2 -/

/-- The first product of layer 2 at `(r, j)`: the sum over `k` of the summed message `(r, k)` divided by
    `max (count r) 1`, times the transposed weight `(k, j)`. -/
theorem sumL2 (x0 : (⟨S50000x128, .f32⟩ : BufTy).Contents (Elt Ideal)) (x1 : (⟨S2x800000, .i32⟩ : BufTy).Contents (Elt Ideal))
    (x2 x3 : (⟨S256x128, .f32⟩ : BufTy).Contents (Elt Ideal)) (x4 : (⟨S256, .f32⟩ : BufTy).Contents (Elt Ideal))
    (x5 : (⟨S64x256, .f32⟩ : BufTy).Contents (Elt Ideal)) (r : Fin 50000) (j : Fin 64) :
    (∑ k : Fin 256, val_main_v48 (F := Ideal) x0 x1 x2 x3 x4 (lidx_main_v50 (ix2 r j) k) * val_main_v49 (F := Ideal) x5 (ridx_main_v50 (ix2 r j) k))
      = ∑ k : Fin 256, Ideal.div (val_main_v40 (F := Ideal) x0 x1 x2 x3 x4 (ix2 r k)) (max (val_main_v44 (F := Ideal) x1 (ix2 r (0 : Fin 1))) Cert.Sage.one)
          * val_main_v49 (F := Ideal) x5 (ix2 k j) := by
  refine Finset.sum_congr rfl fun k _ => ?_
  rw [lidx50, ridx50, val_main_v48_apply, val_main_v47_apply, idx47, val_main_v46_apply, val_main_v45_apply,
    val_main_cst_9_apply, Ideal.hostDivf_def, Ideal.maximumf_def, Ideal.ofBits_def]

/-- The second product of layer 2 at `(r, j)`: the sum over `k` of the hidden feature `(r, k)` times the transposed
    weight `(k, j)`. -/
theorem sumR2 (x0 : (⟨S50000x128, .f32⟩ : BufTy).Contents (Elt Ideal)) (x1 : (⟨S2x800000, .i32⟩ : BufTy).Contents (Elt Ideal))
    (x2 x3 : (⟨S256x128, .f32⟩ : BufTy).Contents (Elt Ideal)) (x4 : (⟨S256, .f32⟩ : BufTy).Contents (Elt Ideal))
    (x6 : (⟨S64x256, .f32⟩ : BufTy).Contents (Elt Ideal)) (r : Fin 50000) (j : Fin 64) :
    (∑ k : Fin 256, val_main_v30 (F := Ideal) x0 x1 x2 x3 x4 (lidx_main_v55 (ix2 r j) k) * val_main_v54 (F := Ideal) x6 (ridx_main_v55 (ix2 r j) k))
      = ∑ k : Fin 256, val_main_v30 (F := Ideal) x0 x1 x2 x3 x4 (ix2 r k) * val_main_v54 (F := Ideal) x6 (ix2 k j) := by
  refine Finset.sum_congr rfl fun k _ => ?_
  rw [lidx55, ridx55]

/-- The broadcast bias of layer 2 at `(r, j)` is the bias at `j`. -/
theorem bias2 (x7 : (⟨S64, .f32⟩ : BufTy).Contents (Elt Ideal)) (r : Fin 50000) (j : Fin 64) :
    x7 (idx_main_v51 (idx_main_v52 (ix2 r j))) = x7 (ix1 j) := by
  rw [idx52, idx51]

/-- The second layer of the reference is the specification's layer without activation of the hidden features, their
    summed messages, the counts, the two transposed weight matrices and the bias. -/
theorem out_eq (x0 : (⟨S50000x128, .f32⟩ : BufTy).Contents (Elt Ideal)) (x1 : (⟨S2x800000, .i32⟩ : BufTy).Contents (Elt Ideal))
    (x2 x3 : (⟨S256x128, .f32⟩ : BufTy).Contents (Elt Ideal)) (x4 : (⟨S256, .f32⟩ : BufTy).Contents (Elt Ideal))
    (x5 x6 : (⟨S64x256, .f32⟩ : BufTy).Contents (Elt Ideal)) (x7 : (⟨S64, .f32⟩ : BufTy).Contents (Elt Ideal)) :
    val_main_v56 (F := Ideal) x0 x1 x2 x3 x4 x5 x6 x7
      = Cert.Sage.linear (val_main_v30 (F := Ideal) x0 x1 x2 x3 x4) (val_main_v40 (F := Ideal) x0 x1 x2 x3 x4)
          (val_main_v44 (F := Ideal) x1) (val_main_v49 (F := Ideal) x5) (val_main_v54 (F := Ideal) x6) (fun j => x7 (ix1 j)) := by
  funext i
  obtain ⟨r, j, rfl⟩ : ∃ (r : Fin 50000) (j : Fin 64), i = ix2 r j := ⟨i 0, i 1, eq_ix2 i⟩
  rewrite [Cert.Sage.linear_apply]
  unfold Cert.Sage.pre
  rewrite [val_main_v56_apply, val_main_v53_apply, val_main_v50_apply, val_main_v55_apply,
    val_main_v52_apply, val_main_v51_apply,
    sumL2, sumR2, bias2 x7 r j, Ideal.addf_def, Ideal.addf_def, bias_last]
  with_reducible rfl

end Cert.Sage.Ref

end
-- ==== Proof.Bridge.lean ====
/-
  The kernel program's result in the reference program's terms. The last boundary of the kernel program's run holds,
  in the result buffer, what the second region leaves: the second layer of the arrays that region finds. Those are
  the hidden array the first region left — the rectified first layer of the arrays IT found, which the first stretch
  of host operations computed from the arguments exactly as the reference does —, the hidden array's messages summed
  by the second stretch, the counts (carried through the first region untouched), and the second layer's transposed
  weights and bias. Each is the reference's stage of the same arguments, so the result is the reference's result.
-/
import proofs.«162847_j16174846836858_1_alg».proof.Proof.Gen.KernelIdeal.Frame
import proofs.«162847_j16174846836858_1_alg».proof.Proof.Gen.ReferenceIdeal.Read
import proofs.«162847_j16174846836858_1_alg».proof.Proof.Region0
import proofs.«162847_j16174846836858_1_alg».proof.Proof.Region1
import proofs.«162847_j16174846836858_1_alg».proof.Proof.StagesDefs
import proofs.«162847_j16174846836858_1_alg».proof.Proof.StagesFirstA
import proofs.«162847_j16174846836858_1_alg».proof.Proof.StagesFirstB
import proofs.«162847_j16174846836858_1_alg».proof.Proof.StagesSecond
import proofs.«162847_j16174846836858_1_alg».proof.Proof.RefLayers
import Idealize.ShloMosaic.Lib.ValueIdx
import Idealize.ShloMosaic.Lib.ValueLayout

set_option maxRecDepth 16384

noncomputable section

namespace Cert.SageKernel.Bridge

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v1 val_main_v3 val_main_v13 val_main_v17 val_main_v22 val_main_v27 val_main_v30 val_main_v40
  val_main_v44 val_main_v49 val_main_v54 val_main_v56)

variable (m : (ℓ : Loc nD τ sig) → Buf (Elt Ideal) ℓ) (ρ : Dev nD → PrngReg)

/-! ## What the first region finds -/

theorem entry0_features (c : Dev nD) : V1 m ρ c main_arg0 = (m ((c : Thread nD τ).loc main_arg0)) := Stages.first_arg0 (W0 m ρ c)
theorem entry0_messages (c : Dev nD) : V1 m ρ c main_v18 = val_main_v13 (F := Ideal) (m ((c : Thread nD τ).loc main_arg0)) (m ((c : Thread nD τ).loc main_arg1)) :=
  Stages.first_v18 (W0 m ρ c)
theorem entry0_counts (c : Dev nD) : V1 m ρ c main_v8 = val_main_v17 (F := Ideal) (m ((c : Thread nD τ).loc main_arg1)) :=
  (Stages.first_v8 (W0 m ρ c)).trans (Stages.countColumn_ref _)
theorem entry0_weightL (c : Dev nD) : V1 m ρ c main_v19 = val_main_v22 (F := Ideal) (m ((c : Thread nD τ).loc main_arg2)) := Stages.first_v19 (W0 m ρ c)
theorem entry0_weightR (c : Dev nD) : V1 m ρ c main_v20 = val_main_v27 (F := Ideal) (m ((c : Thread nD τ).loc main_arg3)) := Stages.first_v20 (W0 m ρ c)
theorem entry0_bias (c : Dev nD) : (fun j : Fin 256 => V1 m ρ c main_v21 (ix2 (0 : Fin 1) j)) = fun j => (m ((c : Thread nD τ).loc main_arg4)) (ix1 j) := by
  funext j
  rw [show V1 m ρ c main_v21 = shapeCast S1x256 (m ((c : Thread nD τ).loc main_arg4)) shapeCasts_S256_S1x256 from Stages.first_v21 (W0 m ρ c)]
  exact shapeCast_a_1a_apply _ _ _ _

/-- THE HIDDEN ARRAY the first region leaves is the reference's hidden array of the same arguments. -/
theorem hidden (c : Dev nD) : Region0.entryLayer (V1 m ρ) c
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Region0.entryLayer
  rw [entry0_features, entry0_messages, entry0_counts, entry0_weightL, entry0_weightR, entry0_bias]
  exact (Cert.Sage.Ref.hidden_eq _ _ _ _ _).symm

/-! ## What the second region finds -/

/-- The first region's output buffer at its exit. -/
theorem exit0_hidden (c : Dev nD) : W2 m ρ c (Proc.devRef .tc main_v22)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W2_arr m ρ c 6).trans (Region0.final (V1 m ρ) c)).trans (hidden m ρ c)

/-- The counts pass through the first region untouched: it only reads them. -/
theorem exit0_counts (c : Dev nD) : W2 m ρ c (Proc.devRef .tc main_v8) = val_main_v44 (F := Ideal) (m ((c : Thread nD τ).loc main_arg1)) :=
  ((W2_arr m ρ c 2).trans (((dat0 (V1 m ρ) c).arrAt_in 2 rfl _).trans (A_eq0 (V1 m ρ) c 2))).trans
    ((entry0_counts m ρ c).trans (Stages.count_twice _))

theorem exit0_sources (c : Dev nD) : W2 m ρ c (Proc.devRef .tc main_v1) = val_main_v1 (F := Ideal) (m ((c : Thread nD τ).loc main_arg1)) :=
  (W2_of_ne m ρ c main_v1 (by decide)).trans (Stages.first_v1 (W0 m ρ c))
theorem exit0_destinations (c : Dev nD) : W2 m ρ c (Proc.devRef .tc main_v3) = val_main_v3 (F := Ideal) (m ((c : Thread nD τ).loc main_arg1)) :=
  (W2_of_ne m ρ c main_v3 (by decide)).trans (Stages.first_v3 (W0 m ρ c))
theorem exit0_arg5 (c : Dev nD) : W2 m ρ c (Proc.devRef .tc main_arg5) = (m ((c : Thread nD τ).loc main_arg5)) :=
  (W2_of_ne m ρ c main_arg5 (by decide)).trans (Stages.first_arg5 (W0 m ρ c))
theorem exit0_arg6 (c : Dev nD) : W2 m ρ c (Proc.devRef .tc main_arg6) = (m ((c : Thread nD τ).loc main_arg6)) :=
  (W2_of_ne m ρ c main_arg6 (by decide)).trans (Stages.first_arg6 (W0 m ρ c))
theorem exit0_arg7 (c : Dev nD) : W2 m ρ c (Proc.devRef .tc main_arg7) = (m ((c : Thread nD τ).loc main_arg7)) :=
  (W2_of_ne m ρ c main_arg7 (by decide)).trans (Stages.first_arg7 (W0 m ρ c))

theorem entry1_hidden (c : Dev nD) : V3 m ρ c main_v22
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Stages.second_v22 (W2 m ρ c)).trans (exit0_hidden m ρ c)
theorem entry1_messages (c : Dev nD) : V3 m ρ c main_v32
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Stages.second_v32 (W2 m ρ c)).trans ?_
  rw [exit0_hidden, exit0_sources, exit0_destinations]
  exact Stages.hiddenSum_ref _ _ _ _ _
theorem entry1_counts (c : Dev nD) : V3 m ρ c main_v8 = val_main_v44 (F := Ideal) (m ((c : Thread nD τ).loc main_arg1)) :=
  (Stages.second_v8 (W2 m ρ c)).trans (exit0_counts m ρ c)
theorem entry1_weightL (c : Dev nD) : V3 m ρ c main_v33 = val_main_v49 (F := Ideal) (m ((c : Thread nD τ).loc main_arg5)) := by
  refine (Stages.second_v33 (W2 m ρ c)).trans ?_
  rw [exit0_arg5]
theorem entry1_weightR (c : Dev nD) : V3 m ρ c main_v34 = val_main_v54 (F := Ideal) (m ((c : Thread nD τ).loc main_arg6)) := by
  refine (Stages.second_v34 (W2 m ρ c)).trans ?_
  rw [exit0_arg6]
theorem entry1_bias (c : Dev nD) : (fun j : Fin 64 => V3 m ρ c main_v35 (ix2 (0 : Fin 1) j)) = fun j => (m ((c : Thread nD τ).loc main_arg7)) (ix1 j) := by
  funext j
  rw [show V3 m ρ c main_v35 = shapeCast S1x64 (W2 m ρ c (Proc.devRef .tc main_arg7)) shapeCasts_S64_S1x64 from Stages.second_v35 (W2 m ρ c),
    exit0_arg7]
  exact shapeCast_a_1a_apply _ _ _ _

/-- THE RESULT BUFFER at the last boundary of the kernel program's run is the reference's result of the same
    arguments. -/
theorem result (c : Dev nD) : W4 m ρ c (Proc.devRef .tc main_v36)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 6).trans (Region1.final (V3 m ρ) c)).trans ?_
  unfold Region1.entryLayer
  rw [entry1_hidden, entry1_messages, entry1_counts, entry1_weightL, entry1_weightR, entry1_bias]
  exact (Cert.Sage.Ref.out_eq _ _ _ _ _ _ _ _).symm

end Cert.SageKernel.Bridge

end
-- ==== Proof.lean ====
/-
  Two layers of mean-aggregating message passing over a graph of 50000 nodes and 800000 edges: the kernel program
  against its reference, over the extended reals.

  Both programs gather each edge's source features, add them up at the edge's destination, divide by the number of
  arriving edges (at least 1), and put the mean and the node's own features through two weight matrices and a bias;
  the first layer is rectified, and the second layer does the same with the hidden array. The kernel program computes
  each layer's dense part in a pipelined region over ten blocks of 5000 nodes and leaves the gathers and the sums to
  host operations; the reference does everything on the host.

  The two programs are one function of the arguments. A layer's entry depends on one row of its inputs, so the ten
  blocks a region writes back tile the layer of the whole arrays (`Region0`, `Region1`, over `Body0`, `Body1`); the
  host operations before and between the regions are the reference's own, up to the form of the edge counts, a vector
  viewed as a column against a column (`StagesDefs`, `LibScatterColumn`); and the reference adds the bias between the
  two matrix products where the kernel adds it last, the same sum in an additive commutative monoid (`RefLayers`). No
  step needs the inputs to be finite. The frames of the two kernel programs are the generated ones; the reference's
  is its generated run with the result dropped; the idealization rewrote nothing, so there is nothing to preserve.
-/
import proofs.«162847_j16174846836858_1_alg».proof.Defs
import proofs.«162847_j16174846836858_1_alg».proof.Proof.Gen.Kernel
import proofs.«162847_j16174846836858_1_alg».proof.Proof.Gen.Kernel.Skeleton
import proofs.«162847_j16174846836858_1_alg».proof.Proof.Gen.Kernel.Launch
import proofs.«162847_j16174846836858_1_alg».proof.Proof.Gen.Kernel.Points
import proofs.«162847_j16174846836858_1_alg».proof.Proof.Gen.Kernel.Frame
import proofs.«162847_j16174846836858_1_alg».proof.Proof.Gen.KernelIdeal
import proofs.«162847_j16174846836858_1_alg».proof.Proof.Gen.KernelIdeal.Skeleton
import proofs.«162847_j16174846836858_1_alg».proof.Proof.Gen.KernelIdeal.Launch
import proofs.«162847_j16174846836858_1_alg».proof.Proof.Gen.KernelIdeal.Points
import proofs.«162847_j16174846836858_1_alg».proof.Proof.Gen.KernelIdeal.Frame
import proofs.«162847_j16174846836858_1_alg».proof.Proof.Gen.ReferenceIdeal
import proofs.«162847_j16174846836858_1_alg».proof.Proof.Gen.ReferenceIdeal.Run
import proofs.«162847_j16174846836858_1_alg».proof.Proof.Gen.ReferenceIdeal.Read
import proofs.«162847_j16174846836858_1_alg».proof.Proof.Gen.Pre_finite_inputs
import proofs.«162847_j16174846836858_1_alg».proof.Proof.KernelRun
import proofs.«162847_j16174846836858_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel program's
    result buffer holds the second layer of the first, which is the reference's result of the same arguments. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.SageKernel.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  beta_reduce
  rw [Cert.SageKernel.Bridge.result,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
